-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 71
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .bf16⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .bf16⟩
  | .local _ .vmem, ⟨4, _⟩ => ⟨S5000x64, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Aggregation.lean ====
/-
  The graph-convolution layer AFTER its linear transform, as one function of the transformed rows `h`.

  With the message list (the edges followed by one self loop per node) given by its source row numbers `s`, its target
  row numbers `d` and its normalised weights `w`, the layer's result is

      relu ( Σ over messages e with target d(e) of  h[s(e), ·] · w(e)   +   bias ),

  spelt with the host operations that compute it: the row gather of `h` at the source numbers (a negative number
  wrapped by adding the number of nodes, the way jnp reads an index), the product with the weight column spread over
  the 64 features, the accumulating scatter into a zero array at the target numbers, the bias row added to every node,
  and the maximum with zero.  Both programs of this certificate end with exactly this line of operations; they differ
  only in how `h = x · W` is produced.  The reference's last stage is this function of its own product (`reference_eq`).
-/
import proofs.«106622_j55259049230850_2_alg».proof.Proof.Gen.ReferenceIdeal.Read

noncomputable section

namespace Cert.Gcn

open Idealize.ShloMosaic Cert.ReferenceIdeal Cert.ReferenceIdeal.Gen Cert.ReferenceIdeal.Read

/-- The source row numbers as a column of gather indices: a negative number `i` reads row `i + 50000`. -/
def wrappedColumn (s : IVec S850000 32) : IVec S850000x1 32 :=
  broadcastInDim S850000x1 ![0] bcast_S850000_S850000x1_0
    (select (cmpi .slt s (val_main_v33 (F := Ideal))) (addi s (val_main_v35 (F := Ideal))) s)

/-- The weight of each message, as a column spread over the 64 features. -/
def weightRows (w : FVec Ideal S850000 .f32) : FVec Ideal S850000x64 .f32 :=
  broadcastInDim S850000x64 ![0, 1] bcast_S850000x1_S850000x64_0_1 (broadcastInDim S850000x1 ![0] bcast_S850000_S850000x1_0 w)

/-- The layer after the linear transform: gather the transformed rows at the sources, scale each by its message's
    weight, add them up at the targets, add the bias, clip at zero. -/
def aggregate (h : FVec Ideal S50000x64 .f32) (s d : IVec S850000 32) (w : FVec Ideal S850000 .f32)
    (b : FVec Ideal S64 .f32) : FVec Ideal S50000x64 .f32 :=
  maximumf (F := Ideal)
    (addf (F := Ideal)
      (Host.scatterAdd (F := Ideal) scatter_S50000x64_S850000x1_S850000x64_1_0_0_1 (val_main_v43 (F := Ideal))
        (broadcastInDim S850000x1 ![0] bcast_S850000_S850000x1_0 d)
        (mulf (F := Ideal) (Host.gather gather_S50000x64_S850000x1_S850000x64_1_0_n_n_0_1_164 h (wrappedColumn s))
          (weightRows w)))
      (val_main_v47 (F := Ideal) b))
    (val_main_call1_v0 (F := Ideal))

/-- The reference's result is the layer applied to ITS product `x · W`, its own message list and weights. -/
theorem reference_eq (x0 : FVec Ideal S50000x64 .f32) (x1 : IVec S2x800000 32) (x2 : FVec Ideal S800000 .f32)
    (x3 : FVec Ideal S64x64 .f32) (x4 : FVec Ideal S64 .f32) :
    val_main_v49 (F := Ideal) x0 x1 x2 x3 x4
      = aggregate (val_main_v32 (F := Ideal) x0 x3) (val_main_v3 (F := Ideal) x1) (val_main_v6 (F := Ideal) x1)
          (val_main_v31 (F := Ideal) x1 x2) x4 := rfl

end Cert.Gcn

end
-- ==== Proof.Product.lean ====
/-
  The linear transform of the layer as a plain function of two arrays: for node features `x` of shape [50000, 64]
  and a weight matrix `W` of shape [64, 64], over the extended reals,

      (x · W)(r, q) = Σ_{k < 64} x(r, k) · W(k, q).

  Both programs compute this array — the kernel block of rows by block of rows on the matrix unit, the reference by
  one `dot_general` — and it is where the two meet.
-/
import Idealize.ShloMosaic.PureOps.Ideal
import Idealize.ShloMosaic.Lib.ValueIdx

noncomputable section

namespace Cert.Gcn

open Idealize.ShloMosaic Idealize.ShloMosaic.ValueIdx

/-- The product of the node features with the weight matrix, entry by entry. -/
def product (x : FVec Ideal ⟨2, ![50000, 64]⟩ .f32) (W : FVec Ideal ⟨2, ![64, 64]⟩ .f32) : FVec Ideal ⟨2, ![50000, 64]⟩ .f32 :=
  fun i => ∑ k : Fin 64, x (ix2 (i 0) k) * W (ix2 k (i 1))

end Cert.Gcn

end
-- ==== Proof.ReferenceProduct.lean ====
/-
  The reference's linear transform.  Its one `dot_general` contracts axis 1 of `x` with axis 0 of `W`; at the ideal
  values its entry (r, q) is the sum over k of x(r, k) · W(k, q): the product of the specification.
-/
import proofs.«106622_j55259049230850_2_alg».proof.Proof.Gen.ReferenceIdeal.Read
import proofs.«106622_j55259049230850_2_alg».proof.Proof.Product

noncomputable section

namespace Cert.Gcn.Reference

open Idealize.ShloMosaic Idealize.ShloMosaic.ValueIdx Cert.ReferenceIdeal Cert.ReferenceIdeal.Gen Cert.ReferenceIdeal.Read

/-- The reference's `x @ W` is the product, entry by entry. -/
theorem product_eq (x0 : FVec Ideal S50000x64 .f32) (x3 : FVec Ideal S64x64 .f32) :
    val_main_v32 (F := Ideal) x0 x3 = Cert.Gcn.product x0 x3 := by
  funext i
  rw [val_main_v32_apply]
  unfold Cert.Gcn.product
  refine Finset.sum_congr rfl fun k _ => ?_
  have el : lidx_main_v32 i k = ix2 (i 0) k := funext fun a => Fin.ext (by
    match a with
    | ⟨0, _⟩ => rfl
    | ⟨1, _⟩ => rfl)
  have er : ridx_main_v32 i k = ix2 k (i 1) := funext fun a => Fin.ext (by
    match a with
    | ⟨0, _⟩ => rfl
    | ⟨1, _⟩ => rfl)
  rw [el, er]
  rfl

end Cert.Gcn.Reference

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.BlockProduct.lean ====
/-
  One grid point of the kernel.  The body loads a block of 5000 rows of `x` and the whole of `W`, casts both to
  bf16, multiplies them on the matrix unit into a zero accumulator, and stores the bf16 cast of the result.  At the
  ideal values a change of float format is the identity and the zero accumulator adds nothing, so entry (p, q) of what
  is stored is the plain sum  Σ_k xblock(p, k) · W(k, q).
-/
import proofs.«106622_j55259049230850_2_alg».proof.Proof.Gen.KernelIdeal.Skeleton
import proofs.«106622_j55259049230850_2_alg».proof.Proof.LibDot

noncomputable section

namespace Cert.Gcn.Kernel

open Idealize.ShloMosaic Idealize.ShloMosaic.ValueIdx Cert.KernelIdeal Cert.KernelIdeal.Gen

/-- Entry (p, q) of the block the body stores: row p of the loaded rows of `x` against column q of `W`. -/
theorem stored_entry (X : Vec Ideal S5000x64 .f32) (W : Vec Ideal S64x64 .f32) (p : Fin 5000) (q : Fin 64) :
    k0_pay1 (F := Ideal) X W (ix2 p q) = ∑ k : Fin 64, (X (ix2 p k) : EReal) * (W (ix2 k q) : EReal) := by
  unfold k0_pay1
  exact Cert.LibDot.matmulZero_apply (M := 5000) (K := 64) (N := 64) dot_S5000x64_S64x64_S5000x64_1_0_0_1_n_n.wf
    (truncf .bf16 X bitsLt_bf16_f32) (truncf .bf16 W bitsLt_bf16_f32) p q

end Cert.Gcn.Kernel

end
-- ==== Proof.Blocks.lean ====
/-
  From the kernel's blocks to its output array.  The grid has ten points; point t reads rows 5000·t … 5000·t + 4999
  of `x` and the whole of `W`, and writes the same rows of the output.  So what point t writes back is rows
  5000·t … of ONE whole-array function, the product

      (x · W)(r, q) = Σ_k x(r, k) · W(k, q),

  and since the ten row blocks tile the 50000 rows, the output array after the region IS that product.
-/
import proofs.«106622_j55259049230850_2_alg».proof.Proof.Gen.KernelIdeal.Frame
import proofs.«106622_j55259049230850_2_alg».proof.Proof.BlockProduct
import proofs.«106622_j55259049230850_2_alg».proof.Proof.Product
import Idealize.ShloMosaic.Lib.Pipeline.Value
import Idealize.ShloMosaic.Lib.ValueIdx

set_option maxRecDepth 16384

noncomputable section

namespace Cert.Gcn.Kernel

open Idealize.ShloMosaic Idealize.ShloMosaic.TcCoe Idealize.ShloMosaic.ValueIdx Idealize.SL.Sem
open Cert.KernelIdeal Cert.KernelIdeal.Gen
open Idealize.ShloMosaic.Pipeline (Dat Cfg Window)
open Cert.Gcn (product)

variable (m : (ℓ : Loc nD τ sig) → Buf (Elt Ideal) ℓ)

theorem zero_offsets : (![0, 0] : Fin 2 → Nat) = fun _ => 0 := funext fun a => by fin_cases a <;> rfl

/-- The printed index maps over the ten points: the block of `x` moves with the output's block along the rows, `W` is
    always its one block, and nothing moves along the features. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem index_onto : ∀ b : Fin 10, ∃ t : Fin cfg0.N, win0_2.index t = ![b.val, 0] :=
  (by decide +kernel : ∀ b : Fin 10, ∃ t : Fin grid0.N, win0_2.index t = ![b.val, 0])

/-- The block of `x` at point t is rows 5000·(block number) … of `x` as the region finds it. -/
theorem x_block (c : Dev nD) (t : Fin cfg0.N) (p : Fin 5000) (k : Fin 64) (i : S50000x64.Idx)
    (h0 : (i 0).val = win0_2.index t (0 : Fin 2) * 5000 + p.val) (h1 : (i 1).val = k.val) :
    (iblk m c 0 t : Vec Ideal S5000x64 .f32) (ix2 p k) = (V m c main_arg0 : S50000x64.Idx → EReal) i := by
  obtain ⟨e0, e1, -, -, -, -⟩ := index_facts t
  unfold iblk
  rw [View.read_apply]
  show V m c main_arg0 _ = V m c main_arg0 i
  congr 1
  funext a
  apply Fin.ext
  match a with
  | ⟨0, _⟩ => show win0_0.index t (0 : Fin 2) * 5000 + 1 * p.val = (i 0).val; omega
  | ⟨1, _⟩ => show win0_0.index t (1 : Fin 2) * 64 + 1 * k.val = (i 1).val; omega

/-- The block of `W` at every point is `W`. -/
theorem w_block (c : Dev nD) (t : Fin cfg0.N) (k q : Fin 64) :
    (iblk m c 1 t : Vec Ideal S64x64 .f32) (ix2 k q) = (V m c main_arg3 : S64x64.Idx → EReal) (ix2 k q) := by
  obtain ⟨-, -, e2, e3, -, -⟩ := index_facts t
  unfold iblk
  rw [View.read_apply]
  show V m c main_arg3 _ = V m c main_arg3 (ix2 k q)
  congr 1
  funext a
  apply Fin.ext
  match a with
  | ⟨0, _⟩ => show win0_1.index t (0 : Fin 2) * 64 + 1 * k.val = k.val; omega
  | ⟨1, _⟩ => show win0_1.index t (1 : Fin 2) * 64 + 1 * q.val = q.val; omega

/-- One stored entry is the product's entry at the array index the block's entry lands on: stated over a row block
    `X` and a weight block `Wb` known to be read off `x` and `W` as above. -/
theorem stored_is_product (x : S50000x64.Idx → EReal) (W : S64x64.Idx → EReal) (b : Nat)
    (X : Vec Ideal S5000x64 .f32) (Wb : Vec Ideal S64x64 .f32)
    (hX : ∀ (p : Fin 5000) (k : Fin 64) (i : S50000x64.Idx), (i 0).val = b * 5000 + p.val → (i 1).val = k.val → X (ix2 p k) = x i)
    (hW : ∀ k q : Fin 64, Wb (ix2 k q) = W (ix2 k q))
    (y : S5000x64.Idx) (i : S50000x64.Idx) (h0 : (i 0).val = b * 5000 + (y 0).val) (h1 : (i 1).val = (y 1).val) :
    k0_pay1 (F := Ideal) X Wb y = product x W i := by
  obtain ⟨p, q, rfl⟩ : ∃ (p : Fin 5000) (q : Fin 64), y = ix2 p q := ⟨y 0, y 1, eq_ix2 y⟩
  refine (stored_entry X Wb p q).trans ?_
  unfold product
  refine Finset.sum_congr rfl fun k _ => ?_
  have hq : (i 1 : Fin 64) = q := Fin.ext h1
  rw [hX p k (ix2 (i 0) k) h0 rfl, hW k q, hq]

/-- WHAT POINT t WRITES BACK is its row block of the product of `x` and `W` as the region finds them. -/
theorem flushed_eq (c : Dev nD) (t : Fin cfg0.N) :
    (dats m 0 c).flushed 2 t
      = ((cfg0.win 2).blk t).view.read (Elt Ideal) (product (V m c main_arg0) (V m c main_arg3)) := by
  show (cfg0.win 2).cut (grid0.coords t) ((dats m 0 c).after 2 t) = _
  rw [after0_2]
  unfold out0_2
  rw [View.canon_unit_zero zero_offsets]
  simp only [View.ld_unit_zero (S := S5000x64) zero_offsets, View.ld_unit_zero (S := S64x64) zero_offsets]
  obtain ⟨-, -, -, -, e4, -⟩ := index_facts t
  funext j
  rw [View.read_apply]
  refine stored_is_product (V m c main_arg0) (V m c main_arg3) (win0_2.index t (0 : Fin 2)) (iblk m c 0 t) (iblk m c 1 t)
    (fun p k i h0 h1 => x_block m c t p k i h0 h1) (fun k q => w_block m c t k q) j (((cfg0.win 2).blk t).view.emb j) ?_ ?_
  · show win0_2.index t (0 : Fin 2) * 5000 + 1 * (j 0).val = win0_2.index t (0 : Fin 2) * 5000 + (j 0).val; omega
  · show win0_2.index t (1 : Fin 2) * 64 + 1 * (j 1).val = (j 1).val; omega

/-- An index of the output array is in point t's block iff each coordinate is in the block's range on its axis. -/
theorem mem_block (t : Fin cfg0.N) (i : S50000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The ten row blocks tile the array: row r is in block r / 5000. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the region is the product of the launch contents of `x` and `W`. -/
theorem output_array (c : Dev nD) :
    (dats m 0 c).arrAt 2 cfg0.N
      = product (m ((c : Thread nD τ).loc main_arg0)) (m ((c : Thread nD τ).loc main_arg3)) := by
  rw [← V_main_arg0 m c, ← V_main_arg3 m c]
  exact (dats m 0 c).arrAt_eq_of_cover 2 (product (V m c main_arg0) (V m c main_arg3)) (fun t _ => flushed_eq m c t) covered

end Cert.Gcn.Kernel

end
-- ==== Proof.KernelHost.lean ====
/-
  The message list of the kernel program.  Before the region the program builds, exactly as the reference does, the
  source and the target row number of every message: row 0, respectively row 1, of `edge_index` (a slice and a
  reshape) followed by 0 … 49999 for the self loops (an iota, joined on by a concatenate).  These are integer arrays
  built by layout operations only; operation for operation they are the reference's own stages of the same
  `edge_index`.
-/
import proofs.«106622_j55259049230850_2_alg».proof.Proof.Gen.KernelIdeal.Frame
import proofs.«106622_j55259049230850_2_alg».proof.Proof.Gen.ReferenceIdeal.Read
import Idealize.ShloMosaic.Lib.StableHlo.Run

set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The source row numbers the region's successors read are the reference's, of the same `edge_index`. -/
theorem sources_eq (c : Dev nD) :
    (V m c main_v3 : IVec S850000 32)
      = Cert.ReferenceIdeal.Read.val_main_v3 (F := Ideal) (m ((c : Thread nD τ).loc main_arg1)) := by
  dsimp only [V, V0]
  simp only [hostOps0, hostOps0_1, hostOps0_2, List.flatten_cons, List.flatten_nil, List.append_nil, List.cons_append,
    List.nil_append]
  after_results_simp
  rfl

/-- The target row numbers likewise. -/
theorem targets_eq (c : Dev nD) :
    (V m c main_v6 : IVec S850000 32)
      = Cert.ReferenceIdeal.Read.val_main_v6 (F := Ideal) (m ((c : Thread nD τ).loc main_arg1)) := by
  dsimp only [V, V0]
  simp only [hostOps0, hostOps0_1, hostOps0_2, List.flatten_cons, List.flatten_nil, List.append_nil, List.cons_append,
    List.nil_append]
  after_results_simp
  rfl

end Cert.Gcn.Kernel

end
-- ==== Proof.KernelWeights.lean ====
/-
  The normalised message weights the kernel program hands to its tail.  Before the region it computes, exactly as the
  reference does, the weighted in-degree of every node (an accumulating scatter of the edge weights, with weight one for
  the self loops, at the target numbers), its inverse square root where positive and zero elsewhere, and for every
  message the product  dinv[source] · weight · dinv[target].  Operation for operation this is the reference's stage of
  the same `edge_index` and `edge_weight`.
-/
import proofs.«106622_j55259049230850_2_alg».proof.Proof.Gen.KernelIdeal.Frame
import proofs.«106622_j55259049230850_2_alg».proof.Proof.Gen.ReferenceIdeal.Read
import Idealize.ShloMosaic.Lib.StableHlo.Run

set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ)

/-- The normalised message weights the tail reads are the reference's stage of the same `edge_index` and `edge_weight`,
    at any reading `F` of the floats (the float operations stay closed: only the order of the operations is compared). -/
theorem weights_eq (c : Dev nD) :
    (V m c main_v31 : FVec F S850000 .f32)
      = Cert.ReferenceIdeal.Read.val_main_v31 (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results_simp
  rfl

end Cert.Gcn.Kernel

end
-- ==== Proof.TailTerm.lean ====
/-
  The host lines AFTER the region, as one term.  They gather rows of the region's bf16 output at the source row numbers
  (a negative number wrapped by adding the number of nodes), widen them to f32, scale each by its message's weight spread
  over the 64 features, add them up at the target row numbers into a zero array, add the bias row to every node, and
  take the maximum with zero.  `tailTerm` is that line of operations over the five arrays it reads, at any reading `F` of the floats.
-/
import proofs.«106622_j55259049230850_2_alg».proof.Proof.Gen.KernelIdeal.Frame
import proofs.«106622_j55259049230850_2_alg».proof.Proof.Aggregation

set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen

variable {F : FTy → Type} [FloatOps F]

/-- The lines after the region as one term over the arrays they read: the region's bf16 output `h`, the source and
    target row numbers, the message weights and the bias — the printed operations, in order. -/
def tailTerm (h : FVec F S50000x64 .bf16) (s d : IVec S850000 32) (w : FVec F S850000 .f32)
    (b : FVec F S64 .f32) : FVec F S50000x64 .f32 :=
  maximumf (F := F)
    (addf (F := F)
      (Host.scatterAdd (F := F) scatter_S50000x64_S850000x1_S850000x64_1_0_0_1
        (broadcastInDim S50000x64 ![] bcast_S_S50000x64 (constant (F := F) S_ .f32 0x00000000#32))
        (broadcastInDim S850000x1 ![0] bcast_S850000_S850000x1_0 d)
        (mulf (F := F)
          (extf (F := F) .f32
            (Host.gather gather_S50000x64_S850000x1_S850000x64_1_0_n_n_0_1_164 h
              (broadcastInDim S850000x1 ![0] bcast_S850000_S850000x1_0
                (select (cmpi .slt s (broadcastInDim S850000 ![] bcast_S_S850000 (constantI S_ 32 0#32)))
                  (addi s (broadcastInDim S850000 ![] bcast_S_S850000 (constantI S_ 32 50000#32))) s)))
            bitsLt_bf16_f32)
          (broadcastInDim S850000x64 ![0, 1] bcast_S850000x1_S850000x64_0_1
            (broadcastInDim S850000x1 ![0] bcast_S850000_S850000x1_0 w))))
      (broadcastInDim S50000x64 ![0, 1] bcast_S1x64_S50000x64_0_1 (broadcastInDim S1x64 ![1] bcast_S64_S1x64_1 b)))
    (broadcastInDim S50000x64 ![] bcast_S_S50000x64 (constant (F := F) S_ .f32 0x00000000#32))

end Cert.Gcn.Kernel

end
-- ==== Proof.TailRead.lean ====
/-
  Reading the host lines after the region: run from any contents of the buffers, they leave `tailTerm` of the arrays
  they read in the result buffer, at any reading `F` of the floats.  (The two lines of the called `relu` go through typed references, whose transports
  are identities.)
-/
import proofs.«106622_j55259049230850_2_alg».proof.Proof.Gen.KernelIdeal.Frame
import proofs.«106622_j55259049230850_2_alg».proof.Proof.Aggregation
import Idealize.ShloMosaic.Lib.StableHlo.Run
import proofs.«106622_j55259049230850_2_alg».proof.Proof.TailTerm
set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen

variable {F : FTy → Type} [FloatOps F]

set_option maxHeartbeats 1000000 in
/-- The lines after the region, from any contents `W` of the buffers, leave that term of `W`'s arrays in the result
    buffer. -/
theorem tail_read (W : Valuation τ sig (Elt F)) :
    (StableHlo.after (List.flatten [hostOps1, hostOps1_1]) W (Proc.devRef .tc main_v50) : FVec F S50000x64 .f32)
      = tailTerm (F := F) (W (Proc.devRef .tc main_v32)) (W (Proc.devRef .tc main_v3)) (W (Proc.devRef .tc main_v6))
          (W (Proc.devRef .tc main_v31)) (W (Proc.devRef .tc main_arg4)) := by
  simp only [hostOps1, hostOps1_1, List.flatten_cons, List.flatten_nil, List.append_nil, List.cons_append, List.nil_append]
  after_results_simp
  unfold tailTerm
  rfl

end Cert.Gcn.Kernel

end
-- ==== Proof.TailLayer.lean ====
/-
  The kernel program's tail is the layer `aggregate`: the widening of the gathered bf16 rows is the identity at the
  ideal values, and every other operation of the tail is the reference's, shape for shape and literal for literal.
-/
import proofs.«106622_j55259049230850_2_alg».proof.Proof.Gen.KernelIdeal.Frame
import proofs.«106622_j55259049230850_2_alg».proof.Proof.Aggregation
import proofs.«106622_j55259049230850_2_alg».proof.Proof.TailTerm
set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen

set_option maxHeartbeats 1000000 in
/-- That term is the layer `aggregate` of the same arrays: the widening of the gathered bf16 rows is the identity at the
    ideal values, and every other operation is the reference's, shape for shape. -/
theorem tailTerm_eq (h : FVec Ideal S50000x64 .bf16) (s d : IVec S850000 32) (w : FVec Ideal S850000 .f32)
    (b : FVec Ideal S64 .f32) : tailTerm (F := Ideal) h s d w b = Cert.Gcn.aggregate h s d w b := by
  have e1 : extf (F := Ideal) .f32
      (Host.gather gather_S50000x64_S850000x1_S850000x64_1_0_n_n_0_1_164 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      bitsLt_bf16_f32
      = Host.gather Cert.ReferenceIdeal.gather_S50000x64_S850000x1_S850000x64_1_0_n_n_0_1_164 h (Cert.Gcn.wrappedColumn s) := rfl
  have e2 : broadcastInDim S850000x64 ![0, 1] bcast_S850000x1_S850000x64_0_1
      (broadcastInDim S850000x1 ![0] bcast_S850000_S850000x1_0 w) = Cert.Gcn.weightRows w := rfl
  have e3 : ∀ u : FVec Ideal S850000x64 .f32,
      Host.scatterAdd (F := Ideal) scatter_S50000x64_S850000x1_S850000x64_1_0_0_1
        (broadcastInDim S50000x64 ![] bcast_S_S50000x64 (constant (F := Ideal) S_ .f32 0x00000000#32))
        (broadcastInDim S850000x1 ![0] bcast_S850000_S850000x1_0 d) u
      = Host.scatterAdd (F := Ideal) Cert.ReferenceIdeal.scatter_S50000x64_S850000x1_S850000x64_1_0_0_1
        (Cert.ReferenceIdeal.Read.val_main_v43 (F := Ideal))
        (broadcastInDim Cert.ReferenceIdeal.S850000x1 ![0] Cert.ReferenceIdeal.Facts₀.bcast_S850000_S850000x1_0 d) u := fun _ => rfl
  have e4 : broadcastInDim S50000x64 ![0, 1] bcast_S1x64_S50000x64_0_1 (broadcastInDim S1x64 ![1] bcast_S64_S1x64_1 b)
      = Cert.ReferenceIdeal.Read.val_main_v47 (F := Ideal) b := rfl
  have e5 : (broadcastInDim S50000x64 ![] bcast_S_S50000x64 (constant (F := Ideal) S_ .f32 0x00000000#32) : FVec Ideal S50000x64 .f32)
      = Cert.ReferenceIdeal.Read.val_main_call1_v0 (F := Ideal) := rfl
  unfold tailTerm Cert.Gcn.aggregate
  rw [e1, e2, e3, e4, e5]

end Cert.Gcn.Kernel

end
-- ==== Proof.KernelRun.lean ====
/-
  The kernel program's run, read.  The generated frame run ends with the region's output array at what the ten grid
  points wrote back — the product `x · W` (Blocks) — and with the result buffer at what the host lines after the region
  make of it.  Those lines are the layer `aggregate` (TailRead, TailLayer) of the region's output, of the source and
  target row numbers and the message weights the host lines before the region computed — the reference's own stages of
  `edge_index` and `edge_weight` (KernelHost, KernelWeights) — and of the bias.  So the program returns

      aggregate (x · W) sources targets weights bias

  of its launch contents, and leaves its five arguments as they were.
-/
import proofs.«106622_j55259049230850_2_alg».proof.Proof.Blocks
import proofs.«106622_j55259049230850_2_alg».proof.Proof.KernelHost
import proofs.«106622_j55259049230850_2_alg».proof.Proof.KernelWeights
import proofs.«106622_j55259049230850_2_alg».proof.Proof.TailRead
import proofs.«106622_j55259049230850_2_alg».proof.Proof.TailLayer
import Idealize.ShloMosaic.Lib.Pipeline.FrameSuffix

set_option maxRecDepth 16384

noncomputable section

namespace Cert.Gcn.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the kernel program returns, as a function of its launch contents. -/
def result (c : Dev nD) : FVec Ideal S50000x64 .f32 :=
  Cert.Gcn.aggregate
    (Cert.Gcn.product (m ((c : Thread nD τ).loc main_arg0)) (m ((c : Thread nD τ).loc main_arg3)))
    (Cert.ReferenceIdeal.Read.val_main_v3 (F := Ideal) (m ((c : Thread nD τ).loc main_arg1)))
    (Cert.ReferenceIdeal.Read.val_main_v6 (F := Ideal) (m ((c : Thread nD τ).loc main_arg1)))
    (Cert.ReferenceIdeal.Read.val_main_v31 (F := Ideal) (m ((c : Thread nD τ).loc main_arg1)) (m ((c : Thread nD τ).loc main_arg2)))
    (m ((c : Thread nD τ).loc main_arg4))

/-- The layer depends on its five arrays only. -/
theorem aggregate_congr {h h' : FVec Ideal Cert.ReferenceIdeal.S50000x64 .f32} {s s' d d' : IVec Cert.ReferenceIdeal.S850000 32}
    {w w' : FVec Ideal Cert.ReferenceIdeal.S850000 .f32} {b b' : FVec Ideal Cert.ReferenceIdeal.S64 .f32}
    (eh : h = h') (es : s = s') (ed : d = d') (ew : w = w') (eb : b = b') :
    Cert.Gcn.aggregate h s d w b = Cert.Gcn.aggregate h' s' d' w' b' := by
  subst eh es ed ew eb; rfl

/-- The result buffer after the host lines that follow the region. -/
theorem tail_result (c : Dev nD) :
    (Pipeline.afterTail₀ cfgs (dats m) 0 (V0 m) [hostOps1, hostOps1_1] c main_v50 : FVec Ideal S50000x64 .f32) = result m c := by
  unfold Pipeline.afterTail₀
  refine (tail_read (F := Ideal) _).trans ((tailTerm_eq _ _ _ _ _).trans ?_)
  unfold result
  exact aggregate_congr
    ((Pipeline.withArrays_arr spec0 launch0.win.arr_inj c _ _ 2).trans (output_array m c))
    ((Pipeline.withArrays_of_ne spec0 c _ _ main_v3 (by exact (by decide : ∀ w, Pipeline.arrRef spec0 w ≠ main_v3))).trans (sources_eq m c))
    ((Pipeline.withArrays_of_ne spec0 c _ _ main_v6 (by exact (by decide : ∀ w, Pipeline.arrRef spec0 w ≠ main_v6))).trans (targets_eq m c))
    ((Pipeline.withArrays_of_ne spec0 c _ _ main_v31 (by exact (by decide : ∀ w, Pipeline.arrRef spec0 w ≠ main_v31))).trans (weights_eq (F := Ideal) m c))
    ((Pipeline.withArrays_of_ne spec0 c _ _ main_arg4 (by exact (by decide : ∀ w, Pipeline.arrRef spec0 w ≠ main_arg4))).trans (V_main_arg4 m c))

/-- Every weakly fair execution of the kernel program terminates, with the result buffer at `result` of the launch
    contents and the five arguments unchanged. -/
theorem run : θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v50 (Pipeline.mem_restRefs_of main_v50 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩)
    (run_main m ρ)

end Cert.Gcn.Kernel

end
-- ==== Proof.lean ====
/-
  A graph-convolution layer (GCNConv): self loops added, symmetric normalisation  D^(-1/2) A D^(-1/2),  the linear
  transform  h = x · W,  the normalised scatter-add aggregation over the messages, the bias, and ReLU.

  The two programs differ in one place only: the kernel program computes `h` in a Pallas kernel — ten blocks of 5000
  rows, each cast to bf16, multiplied by the bf16 cast of `W` on the matrix unit into a zero accumulator, and stored as
  bf16 — and widens the gathered rows back to f32, where the reference computes `h` by one `dot_general` in f32.
  At the ideal values (floats as extended reals, every operation exact, a change of float format the identity) both
  are the array  h(r, q) = Σ_k x(r, k) · W(k, q)  (`Cert.Gcn.product`), and everything around it — the message list,
  the degrees, their inverse square roots, the message weights, the gather, the scaling, the accumulating scatter,
  the bias and the clip — is the same line of host operations in both programs, shape for shape and literal for
  literal (`Cert.Gcn.aggregate`).  So both return  aggregate (x · W) sources targets weights bias  of arguments that
  agree.  No algebraic law beyond "the same sum" is used, and the finiteness of the inputs is never needed.

  The frames of the two kernel programs are the generated ones (the body loads and stores whole blocks through literal
  rectangles); the reference's frame is its generated run with the result forgotten; the idealization rewrote no
  operation, so there is nothing to preserve.
-/
import proofs.«106622_j55259049230850_2_alg».proof.Defs
import proofs.«106622_j55259049230850_2_alg».proof.Proof.Gen.Kernel
import proofs.«106622_j55259049230850_2_alg».proof.Proof.Gen.Kernel.Frame
import proofs.«106622_j55259049230850_2_alg».proof.Proof.Gen.KernelIdeal
import proofs.«106622_j55259049230850_2_alg».proof.Proof.Gen.KernelIdeal.Frame
import proofs.«106622_j55259049230850_2_alg».proof.Proof.Gen.ReferenceIdeal
import proofs.«106622_j55259049230850_2_alg».proof.Proof.Gen.Pre_finite_inputs
import proofs.«106622_j55259049230850_2_alg».proof.Proof.Gen.ReferenceIdeal.Run
import proofs.«106622_j55259049230850_2_alg».proof.Proof.Gen.ReferenceIdeal.Read
import proofs.«106622_j55259049230850_2_alg».proof.Proof.Aggregation
import proofs.«106622_j55259049230850_2_alg».proof.Proof.ReferenceProduct
import proofs.«106622_j55259049230850_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result, of arguments that agree with the kernel program's, is the kernel program's result:
    its last stage is the layer of its own product, and its product is `x · W`. -/
theorem algebraic : Cert.algebraic_KernelIdeal_ReferenceIdeal := by
  intro m ρ m' ρ' _ hagree
  refine ⟨fun c => Cert.Gcn.Kernel.result m c, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.Gcn.reference_eq, Cert.Gcn.Reference.product_eq]
  obtain ⟨h0, h1, h2, h3, h4⟩ := hagree c
  rw [h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
